-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x2048 : Shape := ⟨3, ![4, 4096, 2048]⟩
abbrev S2048 : Shape := ⟨1, ![2048]⟩
abbrev S_ : Shape := ⟨0, ![]⟩

class Facts : Prop where
  bcast_S_S4x4096x2048 : S_.BroadcastsInDim S4x4096x2048 (![] : Fin 0 → Fin S4x4096x2048.rank)
  reducesTo_S4x4096x2048_S_d0_1_2 : S4x4096x2048.ReducesTo [0, 1, 2] S_
  h_S_ : 0 < S_.numel
  bcast_S_S2048 : S_.BroadcastsInDim S2048 (![] : Fin 0 → Fin S2048.rank)
  reducesTo_S2048_S_d0 : S2048.ReducesTo [0] S_

variable [Facts]

def fn {F : FTy → Type} [FloatOps F] (main_arg0 : FVec F S4x4096x2048 .f32) (main_arg1 : FVec F S2048 .f32) : IVec S_ 1 :=
  let main_v0 : FVec F S4x4096x2048 .f32 := Host.absf main_arg0
  let main_cst : FVec F S_ .f32 := constant S_ .f32 0x7F800000#32
  let main_v1 : FVec F S4x4096x2048 .f32 := broadcastInDim S4x4096x2048 ![] bcast_S_S4x4096x2048 main_cst
  let main_v2 : IVec S4x4096x2048 1 := cmpf .olt main_v0 main_v1
  let main_c : IVec S_ 1 := constantI S_ 1 1#1
  let main_v3 : IVec S_ 1 := (fun x v => Host.reduce IntOp.andi x v reducesTo_S4x4096x2048_S_d0_1_2 h_S_) main_v2 main_c
  let main_v4 : FVec F S2048 .f32 := Host.absf main_arg1
  let main_cst_0 : FVec F S_ .f32 := constant S_ .f32 0x7F800000#32
  let main_v5 : FVec F S2048 .f32 := broadcastInDim S2048 ![] bcast_S_S2048 main_cst_0
  let main_v6 : IVec S2048 1 := cmpf .olt main_v4 main_v5
  let main_c_1 : IVec S_ 1 := constantI S_ 1 1#1
  let main_v7 : IVec S_ 1 := (fun x v => Host.reduce IntOp.andi x v reducesTo_S2048_S_d0 h_S_) main_v6 main_c_1
  let main_v8 : IVec S_ 1 := andi main_v3 main_v7
  main_v8
-- ==== Kernel.lean ====
abbrev S4x4096x2048 : Shape := ⟨3, ![4, 4096, 2048]⟩
abbrev S2048 : Shape := ⟨1, ![2048]⟩
abbrev S16384x2048 : Shape := ⟨2, ![16384, 2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 6
  | .vmem => 5
  | .smem => 0
  | _ => 0

abbrev bufTy : (tb : Table) → Fin (tcTables nBuf tb) → BufTy
  | .hbm, ⟨0, _⟩ => ⟨S4x4096x2048, .f32⟩
  | .hbm, ⟨1, _⟩ => ⟨S2048, .f32⟩
  | .hbm, ⟨2, _⟩ => ⟨S16384x2048, .f32⟩
  | .hbm, ⟨3, _⟩ => ⟨S1x2048, .f32⟩
  | .hbm, ⟨4, _⟩ => ⟨S16384x2048, .f32⟩
  | .hbm, ⟨5, _⟩ => ⟨S4x4096x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .f32⟩
  | .local _ .vmem, ⟨4, _⟩ => ⟨S512x2048, .f32⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S4x4096x2048_S16384x2048 : S4x4096x2048.ShapeCasts S16384x2048
  shapeCasts_S2048_S1x2048 : S2048.ShapeCasts S1x2048
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  reduces_S512x2048_S512 : S512x2048.Reduces [1] S512
  shapeCasts_S512_S512x1 : S512.ShapeCasts S512x1
  broadcasts_S512x1_S512x2048 : S512x1.Broadcasts S512x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S512x2048 : S1x2048.Broadcasts S512x2048
  shapeCasts_S16384x2048_S4x4096x2048 : S16384x2048.ShapeCasts S4x4096x2048
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S16384x2048.size a
  hwx0_0 : ∀ i : grid0.Coords, EltTy.bits .f32 = 32 ∨ (Rect.block (s := S16384x2048) S512x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x2048.size a ≤ S1x2048.size a
  hwx0_1 : ∀ i : grid0.Coords, EltTy.bits .f32 = 32 ∨ (Rect.block (s := S1x2048) S1x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x2048.size a ≤ S16384x2048.size a
  hwx0_2 : ∀ i : grid0.Coords, EltTy.bits .f32 = 32 ∨ (Rect.block (s := S16384x2048) S512x2048.size (cc0_transform_2 i) (hinb0_2 i)).WholeWords (EltTy.packing .f32)

variable [Facts₀]

abbrev win0_0 : Pipeline.Window sig grid0 :=
  Pipeline.Window.ofSpec (Memref.whole main_v0) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S512x2048.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4x4096x2048 : Shape := ⟨3, ![4, 4096, 2048]⟩
abbrev S2048 : Shape := ⟨1, ![2048]⟩
abbrev S_ : Shape := ⟨0, ![]⟩
abbrev S4x4096 : Shape := ⟨2, ![4, 4096]⟩
abbrev S4x4096x1 : Shape := ⟨3, ![4, 4096, 1]⟩
abbrev S1x1x2048 : Shape := ⟨3, ![1, 1, 2048]⟩

abbrev nBuf : Space → Nat
  | .hbm => 18
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S2048, .f32⟩
  | .hbm, ⟨2, _⟩ => ⟨S4x4096x2048, .f32⟩
  | .hbm, ⟨3, _⟩ => ⟨S_, .f32⟩
  | .hbm, ⟨4, _⟩ => ⟨S4x4096, .f32⟩
  | .hbm, ⟨5, _⟩ => ⟨S4x4096x1, .f32⟩
  | .hbm, ⟨6, _⟩ => ⟨S_, .f32⟩
  | .hbm, ⟨7, _⟩ => ⟨S4x4096x1, .f32⟩
  | .hbm, ⟨8, _⟩ => ⟨S4x4096x1, .f32⟩
  | .hbm, ⟨9, _⟩ => ⟨S_, .f32⟩
  | .hbm, ⟨10, _⟩ => ⟨S4x4096x1, .f32⟩
  | .hbm, ⟨11, _⟩ => ⟨S4x4096x1, .f32⟩
  | .hbm, ⟨12, _⟩ => ⟨S4x4096x1, .f32⟩
  | .hbm, ⟨13, _⟩ => ⟨S4x4096x2048, .f32⟩
  | .hbm, ⟨14, _⟩ => ⟨S4x4096x2048, .f32⟩
  | .hbm, ⟨15, _⟩ => ⟨S1x1x2048, .f32⟩
  | .hbm, ⟨16, _⟩ => ⟨S4x4096x2048, .f32⟩
  | .hbm, ⟨17, _⟩ => ⟨S4x4096x2048, .f32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]

class Facts₀ : Prop where
  reducesTo_S4x4096x2048_S4x4096_d2 : S4x4096x2048.ReducesTo [2] S4x4096
  h_S_ : 0 < S_.numel
  bcast_S4x4096_S4x4096x1_0_1 : S4x4096.BroadcastsInDim S4x4096x1 (![0, 1] : Fin 2 → Fin S4x4096x1.rank)
  bcast_S_S4x4096x1 : S_.BroadcastsInDim S4x4096x1 (![] : Fin 0 → Fin S4x4096x1.rank)
  bcast_S4x4096x1_S4x4096x2048_0_1_2 : S4x4096x1.BroadcastsInDim S4x4096x2048 (![0, 1, 2] : Fin 3 → Fin S4x4096x2048.rank)
  bcast_S2048_S1x1x2048_2 : S2048.BroadcastsInDim S1x1x2048 (![2] : Fin 1 → Fin S1x1x2048.rank)
  bcast_S1x1x2048_S4x4096x2048_0_1_2 : S1x1x2048.BroadcastsInDim S4x4096x2048 (![0, 1, 2] : Fin 3 → Fin S4x4096x2048.rank)

variable [Facts₀]

class Facts : Prop extends Facts₀ where

variable [Facts]
-- ==== Proof.LibColumn.lean ====
/-
  Two layout operations read at an index given by coordinates: a vector made a one-column matrix, and a
  one-column matrix spread over the columns of a wider one.  Together they turn a per-row quantity (a scale,
  a mean, a variance) into a matrix that is constant along each row.
-/
import Idealize.ShloMosaic.Lib.ValueLayout

namespace Cert.Layer.Column

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Layer.Column
-- ==== Proof.Spec.lean ====
/-
  Root-mean-square normalisation of the rows of a matrix, on the extended reals.  Every entry of a row is
  multiplied by the inverse square root of (the mean of the row's squares plus a small constant) and then by
  a gain that depends on the column only.  The function is stated twice: for a [16384, 2048] matrix with a
  [1, 2048] gain row, and for the same numbers laid out as a [4, 4096, 2048] cube with a [2048] gain vector.
  Row (a, b) of the cube is row a * 4096 + b of the matrix, so the cube form is the matrix form read through
  that relabelling of rows (`cube_of_rows`).  No algebraic law is used and none is needed: both programs
  compute the same expression in the same order, and the only differences are in the layout of the arrays.
-/
import Idealize.ShloMosaic.PureOps.Ideal
import Idealize.ShloMosaic.Lib.ValueIdx
import Idealize.ShloMosaic.Lib.ValueLayout
import Idealize.ShloMosaic.Lib.Pipeline.Value

noncomputable section

namespace Cert.RmsNorm

open Idealize.ShloMosaic Idealize.ShloMosaic.ValueIdx

/-- The data as a cube, as a matrix of its rows, the gain as a vector and as a one-row matrix. -/
abbrev Cube : Shape := ⟨3, ![4, 4096, 2048]⟩
abbrev Rows : Shape := ⟨2, ![16384, 2048]⟩
abbrev Gain : Shape := ⟨1, ![2048]⟩
abbrev GainRow : Shape := ⟨2, ![1, 2048]⟩

/-- The factor a row is scaled by: the inverse square root of the sum of the row's squares divided by the
    row's length 2048 (the word `0x45000000`), plus the small constant the word `0x3727C5AC` denotes. -/
def invRms (row : Fin 2048 → EReal) : EReal :=
  Ideal.rsqrt (Ideal.div (∑ k : Fin 2048, row k * row k) (Ideal.ofBits .f32 0x45000000#32) + Ideal.ofBits .f32 0x3727C5AC#32)

/-- The normalised matrix: entry (r, d) is `x (r, d)` times row `r`'s factor times the gain of column `d`. -/
def normRows (x : Rows.Idx → EReal) (g : GainRow.Idx → EReal) : Rows.Idx → EReal :=
  fun j => x j * invRms (fun k => x (ix2 (j 0) k)) * g (ix2 (0 : Fin 1) (j 1))

/-- The normalised cube: entry (a, b, d) is `x (a, b, d)` times the factor of the row (a, b) times the gain of `d`. -/
def normCube (x : Cube.Idx → EReal) (g : Gain.Idx → EReal) : Cube.Idx → EReal :=
  fun i => x i * invRms (fun k => x (ix3 (i 0) (i 1) k)) * g (ix1 (i 2))

theorem normRows_ix2 (x : Rows.Idx → EReal) (g : GainRow.Idx → EReal) (r : Fin 16384) (d : Fin 2048) :
    normRows x g (ix2 r d) = x (ix2 r d) * invRms (fun k => x (ix2 r k)) * g (ix2 (0 : Fin 1) d) := rfl

theorem normCube_ix3 (x : Cube.Idx → EReal) (g : Gain.Idx → EReal) (a : Fin 4) (b : Fin 4096) (d : Fin 2048) :
    normCube x g (ix3 a b d) = x (ix3 a b d) * invRms (fun k => x (ix3 a b k)) * g (ix1 d) := rfl

/-- The cube flattened to its matrix of rows reads, at row a * 4096 + b and column d, the cube at (a, b, d). -/
theorem rows_of_cube_apply (X : Cube.Idx → EReal) (h : Cube.ShapeCasts Rows) (a : Fin 4) (b : Fin 4096) (d : Fin 2048)
    (r : Fin 16384) (hr : r.val = a.val * 4096 + b.val) : shapeCast Rows X h (ix2 r d) = X (ix3 a b d) :=
  shapeCast_apply X h (ix2 r d) (ix3 a b d) (by
    rw [Shape.rowMajor_val_two, Shape.rowMajor_val_three]
    show (a.val * 4096 + b.val) * 2048 + d.val = r.val * 2048 + d.val
    rw [hr])

/-- A matrix of rows folded back into the cube reads, at (a, b, d), the matrix at row a * 4096 + b and column d. -/
theorem cube_of_rows_apply (Y : Rows.Idx → EReal) (h : Rows.ShapeCasts Cube) (a : Fin 4) (b : Fin 4096) (d : Fin 2048)
    (r : Fin 16384) (hr : r.val = a.val * 4096 + b.val) : shapeCast Cube Y h (ix3 a b d) = Y (ix2 r d) :=
  shapeCast_apply Y h (ix3 a b d) (ix2 r d) (by
    rw [Shape.rowMajor_val_two, Shape.rowMajor_val_three]
    show r.val * 2048 + d.val = (a.val * 4096 + b.val) * 2048 + d.val
    rw [hr])

/-- Flatten the cube, make the gain a one-row matrix, normalise the rows, fold the result back: that is the
    normalised cube.  Index by index both sides are the same product; only the names of the rows differ. -/
theorem cube_of_rows (X : Cube.Idx → EReal) (g : Gain.Idx → EReal)
    (h1 : Cube.ShapeCasts Rows) (h2 : Gain.ShapeCasts GainRow) (h3 : Rows.ShapeCasts Cube) :
    shapeCast Cube (normRows (shapeCast Rows X h1) (shapeCast GainRow g h2)) h3 = normCube X g := by
  funext i
  obtain ⟨a, b, d, rfl⟩ : ∃ (a : Fin 4) (b : Fin 4096) (d : Fin 2048), i = ix3 a b d := ⟨i 0, i 1, i 2, eq_ix3 i⟩
  have hlt : a.val * 4096 + b.val < 16384 := by have := a.isLt; have := b.isLt; omega
  rw [cube_of_rows_apply _ h3 a b d ⟨a.val * 4096 + b.val, hlt⟩ rfl, normRows_ix2, normCube_ix3,
    rows_of_cube_apply X h1 a b d ⟨a.val * 4096 + b.val, hlt⟩ rfl, shapeCast_a_1a_apply g h2 (0 : Fin 1) d]
  have hrow : (fun k : Fin 2048 => shapeCast Rows X h1 (ix2 ⟨a.val * 4096 + b.val, hlt⟩ k)) = fun k => X (ix3 a b k) :=
    funext fun k => rows_of_cube_apply X h1 a b k ⟨a.val * 4096 + b.val, hlt⟩ rfl
  rw [hrow]

end Cert.RmsNorm

end
-- ==== Proof.Payload.lean ====
/-
  What the kernel's body stores, read one entry at a time.  The body loads a [512, 2048] block of rows and the
  [1, 2048] gain row, squares the block, sums each row over its 2048 lanes, divides by 2048, adds the small
  constant, takes the inverse square root, spreads that per-row factor back over the lanes, and multiplies the
  block by it and then by the gain row spread over the 512 rows.  Entry (p, q) of the stored block is therefore
  the block's entry (p, q) times the factor of the block's row p times the gain at lane q.
-/
import proofs.«102910_j56607668961691_2_alg».proof.Proof.Gen.KernelIdeal.Skeleton
import proofs.«102910_j56607668961691_2_alg».proof.Proof.LibColumn
import proofs.«102910_j56607668961691_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.RowValue

open Cert.KernelIdeal Cert.KernelIdeal.Gen Idealize.ShloMosaic Idealize.ShloMosaic.ValueIdx
open Cert.RmsNorm Cert.Layer.Column

/-- The inverse square root of a vector, read at an index. -/
theorem rsqrt_apply {s : Shape} (a : FVec Ideal s .f32) (i : s.Idx) : rsqrt a i = Ideal.rsqrt (a i) := rfl

/-- A scalar constant at the exact instance is the extended real its word denotes. -/
theorem scalar_ofBits (b : BitVec 32) : Scalar.ofBits (F := Ideal) .f32 b = Ideal.ofBits .f32 b := rfl

/-- The sum over the lanes of a [512, 2048] block, read at row `r`: the sum over `k` of the block at (r, k). -/
theorem laneSum_apply (v : FVec Ideal S512x2048 .f32) (h : S512x2048.Reduces [1] S512) (hφ : FKind.Formats .f32)
    (hacc : (0x00000000#32 : BitVec 32) = 0x00000000#32) (r : Fin 512) :
    multiReduction .add [1] S512 v 0x00000000#32 h hφ hacc (ix1 r) = ∑ k : Fin 2048, v (ix2 r k) := by
  refine (Ideal.multiReduction_add_single v 0x00000000#32 h hφ hacc (ix1 r)).trans ?_
  refine Finset.sum_congr rfl fun k _ => congrArg v (funext fun a => Fin.ext ?_)
  match a with
  | ⟨0, _⟩ => rfl
  | ⟨1, _⟩ => rfl

/-- THE STORED BLOCK, entry by entry: the loaded block's entry times its row's factor times the gain. -/
theorem pay_apply (x0 : Vec Ideal S512x2048 .f32) (x1 : Vec Ideal S1x2048 .f32) (p : Fin 512) (q : Fin 2048) :
    k0_pay1 (F := Ideal) x0 x1 (ix2 p q) = x0 (ix2 p q) * invRms (fun k => x0 (ix2 p k)) * x1 (ix2 (0 : Fin 1) q) := by
  unfold k0_pay1
  simp only [shapeCast_self]
  rw [mulf_apply, mulf_apply, broadcastTo_1b_ab_apply, broadcastTo_a1_ab_apply, rsqrt_apply, addf_apply, divf_apply,
    broadcast_apply, broadcast_apply, shapeCast_a_a1_apply, laneSum_apply]
  simp only [mulf_apply, scalar_ofBits]
  rfl

end Cert.KernelIdeal.RowValue

end
-- ==== Proof.Blocks.lean ====
/-
  From the blocks the grid writes back to the whole output matrix.  The grid has 32 points; point `t` works on
  rows 512 t … 512 t + 511 of the [16384, 2048] matrix: its input block is those rows of the flattened data,
  its gain block is the whole [1, 2048] gain row at every point, and the block it writes back is those rows of
  the output.  By the entry-by-entry reading of the stored block, what point `t` writes back is rows
  512 t … 512 t + 511 of the row-normalised matrix of the arrays as the region finds them.  Every row r lies in
  the block of the point r / 512, so the blocks cover the output and the output matrix ends holding the
  row-normalised matrix.
-/
import proofs.«102910_j56607668961691_2_alg».proof.Proof.Gen.KernelIdeal.Frame
import proofs.«102910_j56607668961691_2_alg».proof.Proof.Payload
import Idealize.ShloMosaic.Lib.Pipeline.Value

noncomputable section

namespace Cert.KernelIdeal.RowValue

open Cert.KernelIdeal Cert.KernelIdeal.Gen Idealize.ShloMosaic Idealize.ShloMosaic.TcCoe Idealize.SL.Sem
open Idealize.ShloMosaic.ValueIdx
open Idealize.ShloMosaic.Pipeline (Dat)
open Cert.RmsNorm

variable (m : (ℓ : Loc nD τ sig) → Buf (Elt Ideal) ℓ) (ρ : Dev nD → PrngReg)

theorem zero_offsets : (![0, 0] : Fin 2 → Nat) = fun _ => 0 := funext fun a => by fin_cases a <;> rfl

/-- The block indices over the grid: the data window and the output window are at block row `t`, column block 0;
    the gain window stays at block (0, 0). -/
theorem block_index : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Point `t`'s data block at (p, q) is the flattened data at row 512 t + p, column q. -/
theorem rows_block_apply (c : Dev nD) (t : Fin cfg0.N) (p : Fin 512) (q : Fin 2048) (r : Fin 16384)
    (hr : r.val = t.val * 512 + p.val) :
    (iblk m c 0 t : Vec Ideal S512x2048 .f32) (ix2 p q) = (V m c main_v0 : S16384x2048.Idx → Elt Ideal .f32) (ix2 r q) := by
  obtain ⟨e0, e1, -⟩ := block_index t
  unfold iblk
  rw [View.read_apply]
  show V m c main_v0 _ = V m c main_v0 _
  refine congrArg (V m c main_v0) (funext fun a => Fin.ext ?_)
  match a with
  | ⟨0, _⟩ => show win0_0.index t (0 : Fin 2) * 512 + 1 * p.val = r.val; rw [e0, hr]; omega
  | ⟨1, _⟩ => show win0_0.index t (1 : Fin 2) * 2048 + 1 * q.val = q.val; rw [e1]; omega

/-- Point `t`'s gain block is the gain row, at every point. -/
theorem gain_block_apply (c : Dev nD) (t : Fin cfg0.N) (q : Fin 2048) :
    (iblk m c 1 t : Vec Ideal S1x2048 .f32) (ix2 (0 : Fin 1) q) = (V m c main_v1 : S1x2048.Idx → Elt Ideal .f32) (ix2 (0 : Fin 1) q) := by
  obtain ⟨-, -, e2, e3, -⟩ := block_index t
  unfold iblk
  rw [View.read_apply]
  show V m c main_v1 _ = V m c main_v1 _
  refine congrArg (V m c main_v1) (funext fun a => Fin.ext ?_)
  match a with
  | ⟨0, _⟩ => show win0_1.index t (0 : Fin 2) * 1 + 1 * 0 = 0; rw [e2]
  | ⟨1, _⟩ => show win0_1.index t (1 : Fin 2) * 2048 + 1 * q.val = q.val; rw [e3]; omega

/-- WHAT POINT `t` WRITES BACK is its block of the row-normalised matrix of the arrays as the region finds them. -/
theorem flushed_eq (c : Dev nD) (t : Fin cfg0.N) :
    (dats m 0 c).flushed 2 t = ((cfg0.win 2).blk t).view.read (Elt Ideal) (normRows (V m c main_v0) (V m c main_v1)) := by
  show (cfg0.win 2).cut (grid0.coords t) ((dats m 0 c).after 2 t) = _
  rw [after0_2]
  unfold out0_2
  rw [View.canon_unit_zero zero_offsets]
  simp only [View.ld_unit_zero (S := S512x2048) zero_offsets, View.ld_unit_zero (S := S1x2048) zero_offsets]
  show k0_pay1 (iblk m c 0 t) (iblk m c 1 t)
    = fun j : S512x2048.Idx => normRows (V m c main_v0) (V m c main_v1) (((cfg0.win 2).blk t).view.emb j)
  funext j
  obtain ⟨p, q, rfl⟩ : ∃ (p : Fin 512) (q : Fin 2048), j = ix2 p q := ⟨j 0, j 1, eq_ix2 j⟩
  have ht : t.val < 32 := Nat.lt_of_lt_of_eq t.isLt N_0
  have hlt : t.val * 512 + p.val < 16384 := by have := p.isLt; omega
  obtain ⟨-, -, -, -, e4, e5⟩ := block_index t
  have hemb : ((cfg0.win 2).blk t).view.emb (ix2 p q) = ix2 (⟨t.val * 512 + p.val, hlt⟩ : Fin 16384) q := by
    funext a; apply Fin.ext
    match a with
    | ⟨0, _⟩ => show win0_2.index t (0 : Fin 2) * 512 + 1 * p.val = t.val * 512 + p.val; rw [e4]; omega
    | ⟨1, _⟩ => show win0_2.index t (1 : Fin 2) * 2048 + 1 * q.val = q.val; rw [e5]; omega
  have hrow : (fun k : Fin 2048 => (iblk m c 0 t : Vec Ideal S512x2048 .f32) (ix2 p k))
      = fun k => (V m c main_v0 : S16384x2048.Idx → Elt Ideal .f32) (ix2 (⟨t.val * 512 + p.val, hlt⟩ : Fin 16384) k) :=
    funext fun k => rows_block_apply m c t p k ⟨t.val * 512 + p.val, hlt⟩ rfl
  rw [hemb, normRows_ix2]
  refine (pay_apply (iblk m c 0 t) (iblk m c 1 t) p q).trans ?_
  rw [rows_block_apply m c t p q ⟨t.val * 512 + p.val, hlt⟩ rfl, gain_block_apply m c t q, hrow]

/-- An index of the output matrix is in point `t`'s block iff each coordinate is in the block's range on its axis. -/
theorem mem_block (t : Fin cfg0.N) (i : S16384x2048.Idx) :
    i ∈ ((cfg0.win 2).blk t).view.set ↔ ∀ a : Fin 2, win0_2.index t a * S512x2048.size a ≤ (i a).val
      ∧ (i a).val < win0_2.index t a * S512x2048.size a + S512x2048.size a := by
  show i ∈ ((View.whole main_v2).slice (win0_2.rect t)).set ↔ _
  rw [View.set_slice_whole, Rect.mem_set_unit]
  exact Iff.rfl

/-- Every entry of the output matrix is written back by some point: row `r` by the point `r / 512`. -/
theorem covered (i : S16384x2048.Idx) :
    ∃ t : Fin cfg0.N, (cfg0.win 2).flush t = true ∧ i ∈ ((cfg0.win 2).blk t).view.set := by
  have hi0 : (i 0).val < 16384 := (i 0).isLt
  have hi1 : (i 1).val < 2048 := (i 1).isLt
  obtain ⟨t, ht⟩ : ∃ t : Fin cfg0.N, t.val = (i 0).val / 512 :=
    ⟨⟨(i 0).val / 512, by rw [show cfg0.N = 32 from N_0]; omega⟩, rfl⟩
  obtain ⟨-, -, -, -, e4, e5⟩ := block_index t
  refine ⟨t, flush0_2 t, ?_⟩
  rw [mem_block]
  intro a
  match a with
  | ⟨0, _⟩ =>
    show win0_2.index t (0 : Fin 2) * 512 ≤ (i 0).val ∧ (i 0).val < win0_2.index t (0 : Fin 2) * 512 + 512
    rw [e4, ht]; omega
  | ⟨1, _⟩ =>
    show win0_2.index t (1 : Fin 2) * 2048 ≤ (i 1).val ∧ (i 1).val < win0_2.index t (1 : Fin 2) * 2048 + 2048
    rw [e5]; omega

/-- THE OUTPUT MATRIX after the region: the row-normalised matrix of the arrays as the region finds them. -/
theorem final_rows (c : Dev nD) : (dats m 0 c).arrAt 2 cfg0.N = normRows (V m c main_v0) (V m c main_v1) :=
  (dats m 0 c).arrAt_eq_of_cover 2 (normRows (V m c main_v0) (V m c main_v1)) (fun t _ => flushed_eq m c t) covered

end Cert.KernelIdeal.RowValue

end
-- ==== Proof.Result.lean ====
/-
  The whole program's result.  Before the region the host flattens the [4, 4096, 2048] data to its
  [16384, 2048] matrix of rows and makes the [2048] gain a [1, 2048] row; the region leaves the output matrix at
  the row-normalised matrix of those two; after the region the host folds the output matrix back into a
  [4, 4096, 2048] cube.  Flatten, normalise the rows, fold back is the normalised cube, so the result is the
  normalised cube of the two arguments, and the arguments end as they were launched.
-/
import proofs.«102910_j56607668961691_2_alg».proof.Proof.Blocks
import Idealize.ShloMosaic.Lib.StableHlo.Run

noncomputable section

namespace Cert.KernelIdeal.RowValue

open Cert.KernelIdeal Cert.KernelIdeal.Gen Idealize.ShloMosaic Idealize.ShloMosaic.TcCoe Idealize.SL.Sem
open Idealize.ShloMosaic.StableHlo
open Cert.RmsNorm

variable (m : (ℓ : Loc nD τ sig) → Buf (Elt Ideal) ℓ) (ρ : Dev nD → PrngReg)

/-- The matrix the region reads its data blocks from is the data argument flattened to rows. -/
theorem rows_entry (c : Dev nD) : (V m c main_v0 : S16384x2048.Idx → Elt Ideal .f32)
    = shapeCast S16384x2048 (m ((c : Thread nD τ).loc main_arg0)) shapeCasts_S4x4096x2048_S16384x2048 := by
  show StableHlo.after hostOps0 (fun b => m (c, b)) (Proc.devRef .tc main_v0) = _
  after_results
  rfl

/-- The row the region reads its gain block from is the gain argument as a one-row matrix. -/
theorem gain_entry (c : Dev nD) : (V m c main_v1 : S1x2048.Idx → Elt Ideal .f32)
    = shapeCast S1x2048 (m ((c : Thread nD τ).loc main_arg1)) shapeCasts_S2048_S1x2048 := by
  show StableHlo.after hostOps0 (fun b => m (c, b)) (Proc.devRef .tc main_v1) = _
  after_results
  rfl

/-- THE RESULT: the host's fold of the region's output matrix is the normalised cube of the arguments. -/
theorem result_eq (c : Dev nD) :
    Pipeline.afterTail₀ cfgs (dats m) 0 (V0 m) [hostOps1] c main_v3
      = normCube (m ((c : Thread nD τ).loc main_arg0)) (m ((c : Thread nD τ).loc main_arg1)) := by
  unfold Pipeline.afterTail₀
  show StableHlo.after hostOps1 _ (Proc.devRef .tc main_v3) = _
  after_results
  have hreg := (Pipeline.withArrays_arr spec0 launch0.win.arr_inj c (V0 m c) (fun w => (dats m 0 c).arrAt w cfg0.N) 2).trans
    (final_rows m c)
  show shapeCast S4x4096x2048 (Pipeline.withArrays spec0 c (V0 m c) (fun w => (dats m 0 c).arrAt w cfg0.N)
      (Proc.devRef .tc (Pipeline.arrRef spec0 2))) shapeCasts_S16384x2048_S4x4096x2048 = _
  rw [hreg, rows_entry, gain_entry]
  exact cube_of_rows _ _ _ _ _

/-- THE RUN, READ: every weakly fair execution of the program ends with the result at the normalised cube of the
    arguments and the arguments as launched. -/
theorem run : θ_run defs (onTc (τ := τ) (main (F := Ideal))) ⟨m, fun _ => 0, ρ⟩ fun r => ∀ c : Dev nD,
      r.2.mem ((c : Thread nD τ).loc main_v3) = normCube (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c =>
    ⟨((h c).2 main_v3 (Pipeline.mem_restRefs_of main_v3 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.KernelIdeal.RowValue

end
-- ==== Proof.Reference.lean ====
/-
  The reference, read entry by entry.  It squares the [4, 4096, 2048] data, sums over the last axis from an
  initial zero, keeps that sum as a [4, 4096, 1] column, divides by 2048, adds the small constant, takes the
  inverse square root, spreads the factor over the last axis, multiplies the data by it, and multiplies by the
  gain spread over the first two axes.  At (a, b, d) that is the data's entry times the factor of row (a, b)
  times the gain at d: the normalised cube.  The initial zero of the sum is the one difference from the
  specification's spelling, and zero plus a sum is the sum.
-/
import proofs.«102910_j56607668961691_2_alg».proof.Proof.Gen.ReferenceIdeal.Read
import proofs.«102910_j56607668961691_2_alg».proof.Proof.Spec
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.ValueIdx
open Cert.RmsNorm

/-- The entries the sum for (a, b, d) runs over: row (a, b) of the data, whatever `d`. -/
theorem row_idx (a : Fin 4) (b : Fin 4096) (d k : Fin 2048) :
    idx_main_v1 (idx_main_v2 (idx_main_v8 (ix3 a b d))) k = ix3 a b k :=
  funext fun ax => Fin.ext (by match ax with | ⟨0, _⟩ => rfl | ⟨1, _⟩ => rfl | ⟨2, _⟩ => rfl)

/-- The gain entry (a, b, d) is multiplied by: the gain at `d`. -/
theorem gain_idx (a : Fin 4) (b : Fin 4096) (d : Fin 2048) : idx_main_v10 (idx_main_v11 (ix3 a b d)) = ix1 d :=
  funext fun ax => Fin.ext (by match ax with | ⟨0, _⟩ => rfl)

/-- THE REFERENCE'S RESULT is the normalised cube of its arguments. -/
theorem ref_eq (x0 : FVec Ideal S4x4096x2048 .f32) (x1 : FVec Ideal S2048 .f32) :
    val_main_v12 (F := Ideal) x0 x1 = normCube x0 x1 := by
  funext i
  obtain ⟨a, b, d, rfl⟩ : ∃ (a : Fin 4) (b : Fin 4096) (d : Fin 2048), i = ix3 a b d := ⟨i 0, i 1, i 2, eq_ix3 i⟩
  rw [val_main_v12_apply, val_main_v9_apply, val_main_v8_apply, val_main_v7_apply, val_main_v6_apply, val_main_v4_apply,
    val_main_v2_apply, val_main_v1_apply, val_main_v3_apply, val_main_cst_0_apply, val_main_v5_apply, val_main_cst_1_apply,
    val_main_cst_apply, val_main_v11_apply, val_main_v10_apply, normCube_ix3]
  simp only [val_main_v0_apply, row_idx, gain_idx, Ideal.mulf_def, Ideal.addf_def, Ideal.hostDivf_def,
    Ideal.hostUnary_rsqrt_def, Ideal.ofBits_def, Ideal.ofBits_zero_f32, zero_add]
  rfl

end Cert.ReferenceIdeal.RefValue

end
-- ==== Proof.lean ====
/-
  Root-mean-square normalisation, a tiled kernel against the plain array program: x · rsqrt(mean(x²) + ε) · g
  over x : [4, 4096, 2048] and g : [2048].

  The kernel flattens x to its 16384 rows, walks them in 32 blocks of 512 rows, and in each block squares the
  entries, sums every row over its 2048 lanes, divides by 2048, adds ε, takes the inverse square root, and
  multiplies the block by that per-row factor and by the gain; the host then folds the rows back into the cube.
  The reference does the same arithmetic on the cube at once, summing over the last axis from an initial zero.
  Read on the extended reals both results are, at every (a, b, d),
      x (a, b, d) · rsqrt ((∑ₖ x (a, b, k)²) / 2048 + ε) · g d,
  with the same two constants (the words for 2048 and for ε) on both sides, so nothing is evaluated and no
  algebraic law beyond 0 + s = s is needed; in particular finiteness of the inputs is never used.  What there
  is to prove is about layout: each block is the right rows of the matrix, the blocks cover it, and row
  a · 4096 + b of the matrix is row (a, b) of the cube.

  The three frames are the generated runs; the idealization rewrote nothing, so its claim is trivial.
-/
import proofs.«102910_j56607668961691_2_alg».proof.Defs
import proofs.«102910_j56607668961691_2_alg».proof.Proof.Gen.Kernel
import proofs.«102910_j56607668961691_2_alg».proof.Proof.Gen.Kernel.Skeleton
import proofs.«102910_j56607668961691_2_alg».proof.Proof.Gen.Kernel.Launch
import proofs.«102910_j56607668961691_2_alg».proof.Proof.Gen.Kernel.Points
import proofs.«102910_j56607668961691_2_alg».proof.Proof.Gen.Kernel.Frame
import proofs.«102910_j56607668961691_2_alg».proof.Proof.Gen.KernelIdeal
import proofs.«102910_j56607668961691_2_alg».proof.Proof.Gen.KernelIdeal.Skeleton
import proofs.«102910_j56607668961691_2_alg».proof.Proof.Gen.KernelIdeal.Launch
import proofs.«102910_j56607668961691_2_alg».proof.Proof.Gen.KernelIdeal.Points
import proofs.«102910_j56607668961691_2_alg».proof.Proof.Gen.KernelIdeal.Frame
import proofs.«102910_j56607668961691_2_alg».proof.Proof.Gen.ReferenceIdeal
import proofs.«102910_j56607668961691_2_alg».proof.Proof.Gen.ReferenceIdeal.Run
import proofs.«102910_j56607668961691_2_alg».proof.Proof.Gen.ReferenceIdeal.Read
import proofs.«102910_j56607668961691_2_alg».proof.Proof.Gen.Pre_finite_inputs
import proofs.«102910_j56607668961691_2_alg».proof.Proof.Result
import proofs.«102910_j56607668961691_2_alg».proof.Proof.Reference
import Idealize.ShloMosaic.Adequacy
import Idealize.ShloMosaic.Init

noncomputable section

namespace Cert.Proof

open Idealize.ShloMosaic Idealize.SL.Sem Cert.Kernel

/-- The word-level kernel runs and leaves its arguments as launched. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference runs and leaves its arguments as launched: its run with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on x and g both programs end with the normalised cube of x and g as their result. -/
theorem algebraic : Cert.algebraic_KernelIdeal_ReferenceIdeal := by
  intro m ρ m' ρ' _ hagree
  refine ⟨fun c => Cert.RmsNorm.normCube (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.RowValue.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v12_eq, Cert.ReferenceIdeal.RefValue.ref_eq, (hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
